-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x256x512 : Shape := ⟨3, ![4, 256, 512]⟩
abbrev S4x128x512 : Shape := ⟨3, ![4, 128, 512]⟩
abbrev S512x512 : Shape := ⟨2, ![512, 512]⟩
abbrev S512 : Shape := ⟨1, ![512]⟩
abbrev S1024x512 : Shape := ⟨2, ![1024, 512]⟩
abbrev S1024 : Shape := ⟨1, ![1024]⟩
abbrev S_ : Shape := ⟨0, ![]⟩

class Facts : Prop where
  bcast_S_S4x256x512 : S_.BroadcastsInDim S4x256x512 (![] : Fin 0 → Fin S4x256x512.rank)
  reducesTo_S4x256x512_S_d0_1_2 : S4x256x512.ReducesTo [0, 1, 2] S_
  h_S_ : 0 < S_.numel
  bcast_S_S4x128x512 : S_.BroadcastsInDim S4x128x512 (![] : Fin 0 → Fin S4x128x512.rank)
  reducesTo_S4x128x512_S_d0_1_2 : S4x128x512.ReducesTo [0, 1, 2] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S1024x512 : S_.BroadcastsInDim S1024x512 (![] : Fin 0 → Fin S1024x512.rank)
  reducesTo_S1024x512_S_d0_1 : S1024x512.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  main_v38

def fn_part1 {F : FTy → Type} [FloatOps F] (main_arg4 : FVec F S512x512 .f32) (main_arg5 : FVec F S512 .f32) (main_arg6 : FVec F S1024x512 .f32) (main_arg7 : FVec F S1024 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S1024x512 .f32 := Host.absf main_arg6
  let main_cst_10 : FVec F S_ .f32 := constant S_ .f32 0x7F800000#32
  let main_v30 : FVec F S1024x512 .f32 := broadcastInDim S1024x512 ![] bcast_S_S1024x512 main_cst_10
  let main_v31 : IVec S1024x512 1 := cmpf .olt main_v29 main_v30
  let main_c_11 : IVec S_ 1 := constantI S_ 1 1#1
  let main_v32 : IVec S_ 1 := (fun x v => Host.reduce IntOp.andi x v reducesTo_S1024x512_S_d0_1 h_S_) main_v31 main_c_11
  let main_v33 : IVec S_ 1 := andi main_v28 main_v32
  fn_part2 (F := F) main_arg7 main_v33

def fn {F : FTy → Type} [FloatOps F] (main_arg0 : FVec F S4x256x512 .f32) (main_arg1 : FVec F S4x128x512 .f32) (main_arg2 : FVec F S512x512 .f32) (main_arg3 : FVec F S512 .f32) (main_arg4 : FVec F S512x512 .f32) (main_arg5 : FVec F S512 .f32) (main_arg6 : FVec F S1024x512 .f32) (main_arg7 : FVec F S1024 .f32) : IVec S_ 1 :=
  let main_v0 : FVec F S4x256x512 .f32 := Host.absf main_arg0
  let main_cst : FVec F S_ .f32 := constant S_ .f32 0x7F800000#32
  let main_v1 : FVec F S4x256x512 .f32 := broadcastInDim S4x256x512 ![] bcast_S_S4x256x512 main_cst
  let main_v2 : IVec S4x256x512 1 := cmpf .olt main_v0 main_v1
  let main_c : IVec S_ 1 := constantI S_ 1 1#1
  let main_v3 : IVec S_ 1 := (fun x v => Host.reduce IntOp.andi x v reducesTo_S4x256x512_S_d0_1_2 h_S_) main_v2 main_c
  let main_v4 : FVec F S4x128x512 .f32 := Host.absf main_arg1
  let main_cst_0 : FVec F S_ .f32 := constant S_ .f32 0x7F800000#32
  let main_v5 : FVec F S4x128x512 .f32 := broadcastInDim S4x128x512 ![] bcast_S_S4x128x512 main_cst_0
  let main_v6 : IVec S4x128x512 1 := cmpf .olt main_v4 main_v5
  let main_c_1 : IVec S_ 1 := constantI S_ 1 1#1
  let main_v7 : IVec S_ 1 := (fun x v => Host.reduce IntOp.andi x v reducesTo_S4x128x512_S_d0_1_2 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_v13 main_v16
-- ==== Kernel.lean ====
abbrev S4x256x512 : Shape := ⟨3, ![4, 256, 512]⟩
abbrev S4x128x512 : Shape := ⟨3, ![4, 128, 512]⟩
abbrev S512x512 : Shape := ⟨2, ![512, 512]⟩
abbrev S512 : Shape := ⟨1, ![512]⟩
abbrev S1024x512 : Shape := ⟨2, ![1024, 512]⟩
abbrev S1024 : Shape := ⟨1, ![1024]⟩
abbrev S1x512 : Shape := ⟨2, ![1, 512]⟩
abbrev S4x256x128x1024 : Shape := ⟨4, ![4, 256, 128, 1024]⟩
abbrev S1x32x512 : Shape := ⟨3, ![1, 32, 512]⟩
abbrev S1x128x512 : Shape := ⟨3, ![1, 128, 512]⟩
abbrev S1x32x128x512 : Shape := ⟨4, ![1, 32, 128, 512]⟩
abbrev S32x512 : Shape := ⟨2, ![32, 512]⟩
abbrev S128x512 : Shape := ⟨2, ![128, 512]⟩
abbrev S32x1x512 : Shape := ⟨3, ![32, 1, 512]⟩
abbrev S32x128x512 : Shape := ⟨3, ![32, 128, 512]⟩
abbrev S4096x512 : Shape := ⟨2, ![4096, 512]⟩

abbrev nBuf : Space → Nat
  | .hbm => 11
  | .vmem => 18
  | .smem => 0
  | _ => 0

abbrev bufTy : (tb : Table) → Fin (tcTables nBuf tb) → BufTy
  | .hbm, ⟨0, _⟩ => ⟨S4x256x512, .f32⟩
  | .hbm, ⟨1, _⟩ => ⟨S4x128x512, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S1024x512, .f32⟩
  | .hbm, ⟨7, _⟩ => ⟨S1024, .f32⟩
  | .hbm, ⟨8, _⟩ => ⟨S4x256x512, .f32⟩
  | .hbm, ⟨9, _⟩ => ⟨S4x128x512, .f32⟩
  | .hbm, ⟨10, _⟩ => ⟨S4x256x128x1024, .f32⟩
  | .local _ .vmem, ⟨0, _⟩ => ⟨S4x256x512, .f32⟩
  | .local _ .vmem, ⟨1, _⟩ => ⟨S4x128x512, .f32⟩
  | .local _ .vmem, ⟨2, _⟩ => ⟨S512x512, .f32⟩
  | .local _ .vmem, ⟨3, _⟩ => ⟨S512, .f32⟩
  | .local _ .vmem, ⟨4, _⟩ => ⟨S512x512, .f32⟩
  | .local _ .vmem, ⟨5, _⟩ => ⟨S512, .f32⟩
  | .local _ .vmem, ⟨6, _⟩ => ⟨S4x256x512, .f32⟩
  | .local _ .vmem, ⟨7, _⟩ => ⟨S4x128x512, .f32⟩
  | .local _ .vmem, ⟨8, _⟩ => ⟨S1x32x512, .f32⟩
  | .local _ .vmem, ⟨9, _⟩ => ⟨S1x32x512, .f32⟩
  | .local _ .vmem, ⟨10, _⟩ => ⟨S1x128x512, .f32⟩
  | .local _ .vmem, ⟨11, _⟩ => ⟨S1x128x512, .f32⟩
  | .local _ .vmem, ⟨12, _⟩ => ⟨S512x512, .f32⟩
  | .local _ .vmem, ⟨13, _⟩ => ⟨S512x512, .f32⟩
  | .local _ .vmem, ⟨14, _⟩ => ⟨S512, .f32⟩
  | .local _ .vmem, ⟨15, _⟩ => ⟨S512, .f32⟩
  | .local _ .vmem, ⟨16, _⟩ => ⟨S1x32x128x512, .f32⟩
  | .local _ .vmem, ⟨17, _⟩ => ⟨S1x32x128x512, .f32⟩
  | _, _ => ⟨S4x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v1 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S4x256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4x128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x128x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨3, ![4, 8, 2], ![false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc1_transform_3 (i : grid1.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat]

def cc1_transform_4 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

abbrev stage1_0 : Fin 2 → Memref sig .tc .vmem S1x32x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x128x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, false]

abbrev stage1_2 : Fin 2 → Memref sig .tc .vmem S512x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, false, true]

abbrev stage1_3 : Fin 2 → Memref sig .tc .vmem S512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, false, true]

abbrev stage1_4 : Fin 2 → Memref sig .tc .vmem S1x32x128x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, true]

class Facts₀ : Prop where
  inb_S4x256x512_S4x256x512_0_0_0 : ∀ a, (![0, 0, 0] : Fin 3 → Nat) a + S4x256x512.size a ≤ S4x256x512.size a
  h_S4x256x512 : 0 < S4x256x512.numel
  shapeCasts_S4x256x512_S1024x512 : S4x256x512.ShapeCasts S1024x512
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  transposes_S512x512_p1_0_S512x512 : S512x512.Transposes [1, 0] S512x512
  inb_S512_S512_0 : ∀ a, (![0] : Fin 1 → Nat) a + S512.size a ≤ S512.size a
  h_S512 : 0 < S512.numel
  shapeCasts_S512_S1x512 : S512.ShapeCasts S1x512
  broadcasts_S1x512_S1024x512 : S1x512.Broadcasts S1024x512
  shapeCasts_S1024x512_S4x256x512 : S1024x512.ShapeCasts S4x256x512
  inb_S4x128x512_S4x128x512_0_0_0 : ∀ a, (![0, 0, 0] : Fin 3 → Nat) a + S4x128x512.size a ≤ S4x128x512.size a
  h_S4x128x512 : 0 < S4x128x512.numel
  shapeCasts_S4x128x512_S512x512 : S4x128x512.ShapeCasts S512x512
  broadcasts_S1x512_S512x512 : S1x512.Broadcasts S512x512
  shapeCasts_S512x512_S4x128x512 : S512x512.ShapeCasts S4x128x512
  inb_S1x32x512_S1x32x512_0_0_0 : ∀ a, (![0, 0, 0] : Fin 3 → Nat) a + S1x32x512.size a ≤ S1x32x512.size a
  h_S1x32x512 : 0 < S1x32x512.numel
  shapeCasts_S1x32x512_S32x512 : S1x32x512.ShapeCasts S32x512
  inb_S1x128x512_S1x128x512_0_0_0 : ∀ a, (![0, 0, 0] : Fin 3 → Nat) a + S1x128x512.size a ≤ S1x128x512.size a
  h_S1x128x512 : 0 < S1x128x512.numel
  shapeCasts_S1x128x512_S128x512 : S1x128x512.ShapeCasts S128x512
  shapeCasts_S32x512_S32x1x512 : S32x512.ShapeCasts S32x1x512
  shapeCasts_S128x512_S1x128x512 : S128x512.ShapeCasts S1x128x512
  broadcasts_S32x1x512_S32x128x512 : S32x1x512.Broadcasts S32x128x512
  broadcasts_S1x128x512_S32x128x512 : S1x128x512.Broadcasts S32x128x512
  shapeCasts_S32x128x512_S4096x512 : S32x128x512.ShapeCasts S4096x512
  broadcasts_S1x512_S4096x512 : S1x512.Broadcasts S4096x512
  shapeCasts_S4096x512_S32x128x512 : S4096x512.ShapeCasts S32x128x512
  inb_S1x32x128x512_S1x32x128x512_0_0_0_0 : ∀ a, (![0, 0, 0, 0] : Fin 4 → Nat) a + S1x32x128x512.size a ≤ S1x32x128x512.size a
  h_S1x32x128x512 : 0 < S1x32x128x512.numel
  shapeCasts_S1x32x128x512_S32x128x512 : S1x32x128x512.ShapeCasts S32x128x512
  shapeCasts_S32x128x512_S1x32x128x512 : S32x128x512.ShapeCasts S1x32x128x512
  dot_S1024x512_S512x512_S1024x512_1_0_0_1_n_n_wf : DotDims.WF S1024x512 S512x512 S1024x512 [1] [0] [0] [1] [] []
  dot_S512x512_S512x512_S512x512_1_0_0_1_n_n_wf : DotDims.WF S512x512 S512x512 S512x512 [1] [0] [0] [1] [] []
  dot_S4096x512_S512x512_S4096x512_1_0_0_1_n_n_wf : DotDims.WF S4096x512 S512x512 S4096x512 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4x256x512.size a ≤ S4x256x512.size a
  hwx0_0 : ∀ i : grid0.Coords, EltTy.bits .f32 = 32 ∨ (Rect.block (s := S4x256x512) S4x256x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x128x512.size a ≤ S4x128x512.size a
  hwx0_1 : ∀ i : grid0.Coords, EltTy.bits .f32 = 32 ∨ (Rect.block (s := S4x128x512) S4x128x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512.size a ≤ S512.size a
  hwx0_3 : ∀ i : grid0.Coords, EltTy.bits .f32 = 32 ∨ (Rect.block (s := S512) S512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .f32 = 32 ∨ (Rect.block (s := S512x512) S512x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512.size a ≤ S512.size a
  hwx0_5 : ∀ i : grid0.Coords, EltTy.bits .f32 = 32 ∨ (Rect.block (s := S512) S512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S4x256x512.size a ≤ S4x256x512.size a
  hwx0_6 : ∀ i : grid0.Coords, EltTy.bits .f32 = 32 ∨ (Rect.block (s := S4x256x512) S4x256x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S4x128x512.size a ≤ S4x128x512.size a
  hwx0_7 : ∀ i : grid0.Coords, EltTy.bits .f32 = 32 ∨ (Rect.block (s := S4x128x512) S4x128x512.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x32x512.size a ≤ S4x256x512.size a
  hwx1_0 : ∀ i : grid1.Coords, EltTy.bits .f32 = 32 ∨ (Rect.block (s := S4x256x512) S1x32x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x128x512.size a ≤ S4x128x512.size a
  hwx1_1 : ∀ i : grid1.Coords, EltTy.bits .f32 = 32 ∨ (Rect.block (s := S4x128x512) S1x128x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x512.size a ≤ S1024x512.size a
  hwx1_2 : ∀ i : grid1.Coords, EltTy.bits .f32 = 32 ∨ (Rect.block (s := S1024x512) S512x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512.size a ≤ S1024.size a
  hwx1_3 : ∀ i : grid1.Coords, EltTy.bits .f32 = 32 ∨ (Rect.block (s := S1024) S512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x32x128x512.size a ≤ S4x256x128x1024.size a
  hwx1_4 : ∀ i : grid1.Coords, EltTy.bits .f32 = 32 ∨ (Rect.block (s := S4x256x128x1024) S1x32x128x512.size (cc1_transform_4 i) (hinb1_4 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def dot_S4096x512_S512x512_S4096x512_1_0_0_1_n_n : DotDims S4096x512 S512x512 S4096x512 where
  lhsContracting := [1]
  rhsContracting := [0]
  lhsNonContracting := [0]
  rhsNonContracting := [1]
  lhsBatch := []
  rhsBatch := []
  wf := dot_S4096x512_S512x512_S4096x512_1_0_0_1_n_n_wf

abbrev win0_0 : Pipeline.Window sig grid0 :=
  Pipeline.Window.ofSpec (Memref.whole main_arg0) S4x256x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x128x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0_0) S4x256x512.size cc0_transform_6 reads0_6 true true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0_1) S4x128x512.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v0_0) S1x32x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_1) S1x128x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S512x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v1) S1x32x128x512.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S4x256x512 : Shape := ⟨3, ![4, 256, 512]⟩
abbrev S4x128x512 : Shape := ⟨3, ![4, 128, 512]⟩
abbrev S512x512 : Shape := ⟨2, ![512, 512]⟩
abbrev S512 : Shape := ⟨1, ![512]⟩
abbrev S1024x512 : Shape := ⟨2, ![1024, 512]⟩
abbrev S1024 : Shape := ⟨1, ![1024]⟩
abbrev S1x1x512 : Shape := ⟨3, ![1, 1, 512]⟩
abbrev S4x256x1x512 : Shape := ⟨4, ![4, 256, 1, 512]⟩
abbrev S4x1x128x512 : Shape := ⟨4, ![4, 1, 128, 512]⟩
abbrev S4x256x128x512 : Shape := ⟨4, ![4, 256, 128, 512]⟩
abbrev S4x256x128x1024 : Shape := ⟨4, ![4, 256, 128, 1024]⟩
abbrev S1x1x1x1024 : Shape := ⟨4, ![1, 1, 1, 1024]⟩

abbrev nBuf : Space → Nat
  | .hbm => 26
  | .vmem => 0
  | .smem => 0
  | _ => 0

abbrev bufTy : (tb : Table) → Fin (tcTables nBuf tb) → BufTy
  | .hbm, ⟨0, _⟩ => ⟨S4x256x512, .f32⟩
  | .hbm, ⟨1, _⟩ => ⟨S4x128x512, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S1024x512, .f32⟩
  | .hbm, ⟨7, _⟩ => ⟨S1024, .f32⟩
  | .hbm, ⟨8, _⟩ => ⟨S4x256x512, .f32⟩
  | .hbm, ⟨9, _⟩ => ⟨S1x1x512, .f32⟩
  | .hbm, ⟨10, _⟩ => ⟨S4x256x512, .f32⟩
  | .hbm, ⟨11, _⟩ => ⟨S4x256x512, .f32⟩
  | .hbm, ⟨12, _⟩ => ⟨S4x128x512, .f32⟩
  | .hbm, ⟨13, _⟩ => ⟨S1x1x512, .f32⟩
  | .hbm, ⟨14, _⟩ => ⟨S4x128x512, .f32⟩
  | .hbm, ⟨15, _⟩ => ⟨S4x128x512, .f32⟩
  | .hbm, ⟨16, _⟩ => ⟨S4x256x1x512, .f32⟩
  | .hbm, ⟨17, _⟩ => ⟨S4x1x128x512, .f32⟩
  | .hbm, ⟨18, _⟩ => ⟨S4x256x128x512, .f32⟩
  | .hbm, ⟨19, _⟩ => ⟨S4x256x128x512, .f32⟩
  | .hbm, ⟨20, _⟩ => ⟨S4x256x128x512, .f32⟩
  | .hbm, ⟨21, _⟩ => ⟨S4x256x128x512, .f32⟩
  | .hbm, ⟨22, _⟩ => ⟨S4x256x128x1024, .f32⟩
  | .hbm, ⟨23, _⟩ => ⟨S1x1x1x1024, .f32⟩
  | .hbm, ⟨24, _⟩ => ⟨S4x256x128x1024, .f32⟩
  | .hbm, ⟨25, _⟩ => ⟨S4x256x128x1024, .f32⟩
  | _, _ => ⟨S4x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]

class Facts₀ : Prop where
  bcast_S512_S1x1x512_2 : S512.BroadcastsInDim S1x1x512 (![2] : Fin 1 → Fin S1x1x512.rank)
  bcast_S1x1x512_S4x256x512_0_1_2 : S1x1x512.BroadcastsInDim S4x256x512 (![0, 1, 2] : Fin 3 → Fin S4x256x512.rank)
  bcast_S1x1x512_S4x128x512_0_1_2 : S1x1x512.BroadcastsInDim S4x128x512 (![0, 1, 2] : Fin 3 → Fin S4x128x512.rank)
  bcast_S4x256x512_S4x256x1x512_0_1_3 : S4x256x512.BroadcastsInDim S4x256x1x512 (![0, 1, 3] : Fin 3 → Fin S4x256x1x512.rank)
  bcast_S4x128x512_S4x1x128x512_0_2_3 : S4x128x512.BroadcastsInDim S4x1x128x512 (![0, 2, 3] : Fin 3 → Fin S4x1x128x512.rank)
  bcast_S4x256x1x512_S4x256x128x512_0_1_2_3 : S4x256x1x512.BroadcastsInDim S4x256x128x512 (![0, 1, 2, 3] : Fin 4 → Fin S4x256x128x512.rank)
  bcast_S4x1x128x512_S4x256x128x512_0_1_2_3 : S4x1x128x512.BroadcastsInDim S4x256x128x512 (![0, 1, 2, 3] : Fin 4 → Fin S4x256x128x512.rank)
  bcast_S1024_S1x1x1x1024_3 : S1024.BroadcastsInDim S1x1x1x1024 (![3] : Fin 1 → Fin S1x1x1x1024.rank)
  bcast_S1x1x1x1024_S4x256x128x1024_0_1_2_3 : S1x1x1x1024.BroadcastsInDim S4x256x128x1024 (![0, 1, 2, 3] : Fin 4 → Fin S4x256x128x1024.rank)
  dot_S4x256x512_S512x512_S4x256x512_2_1_01_0_n_n_wf : DotDims.WF S4x256x512 S512x512 S4x256x512 [2] [1] [0, 1] [0] [] []
  dot_S4x128x512_S512x512_S4x128x512_2_1_01_0_n_n_wf : DotDims.WF S4x128x512 S512x512 S4x128x512 [2] [1] [0, 1] [0] [] []
  dot_S4x256x128x512_S1024x512_S4x256x128x1024_3_1_012_0_n_n_wf : DotDims.WF S4x256x128x512 S1024x512 S4x256x128x1024 [3] [1] [0, 1, 2] [0] [] []

variable [Facts₀]

def dot_S4x256x512_S512x512_S4x256x512_2_1_01_0_n_n : DotDims S4x256x512 S512x512 S4x256x512 where
  lhsContracting := [2]
  rhsContracting := [1]
  lhsNonContracting := [0, 1]
  rhsNonContracting := [0]
  lhsBatch := []
  rhsBatch := []
  wf := dot_S4x256x512_S512x512_S4x256x512_2_1_01_0_n_n_wf
def dot_S4x128x512_S512x512_S4x128x512_2_1_01_0_n_n : DotDims S4x128x512 S512x512 S4x128x512 where
  lhsContracting := [2]
  rhsContracting := [1]
  lhsNonContracting := [0, 1]
  rhsNonContracting := [0]
  lhsBatch := []
  rhsBatch := []
  wf := dot_S4x128x512_S512x512_S4x128x512_2_1_01_0_n_n_wf
def dot_S4x256x128x512_S1024x512_S4x256x128x1024_3_1_012_0_n_n : DotDims S4x256x128x512 S1024x512 S4x256x128x1024 where
  lhsContracting := [3]
  rhsContracting := [1]
  lhsNonContracting := [0, 1, 2]
  rhsNonContracting := [0]
  lhsBatch := []
  rhsBatch := []
  wf := dot_S4x256x128x512_S1024x512_S4x256x128x1024_3_1_012_0_n_n_wf

class Facts : Prop extends Facts₀ where

variable [Facts]
-- ==== Proof.Spec.lean ====
/-
  The joint network of a sequence transducer as ONE function of its eight arrays, entry by entry, over the extended reals.

  Two linear layers over the last axis,
      e (b, t, h) = (∑ k, enc (b, t, k) · W_enc (h, k)) + b_enc h        d (b, u, h) = (∑ k, dec (b, u, k) · W_dec (h, k)) + b_dec h,
  are added over every pair (t, u) of positions, passed through tanh, and projected on the vocabulary:
      out (b, t, u, v) = (∑ h, tanh (e (b, t, h) + d (b, u, h)) · W_joint (v, h)) + b_joint v.
  Every sum is a finite sum in the commutative monoid of the extended reals, so the order and the grouping of its terms
  do not matter, and no step uses distributivity or cancellation: nothing here asks the entries to be finite.
-/
import Idealize.ShloMosaic.Lib.ValueIdx
import Idealize.ShloMosaic.PureOps.Ideal

noncomputable section

open scoped BigOperators

namespace Cert.JointNet

open Idealize.ShloMosaic Idealize.ShloMosaic.ValueIdx

/-- One entry of a linear layer over the last axis of a `[4, n, 512]` array: row `(b, t)` of `x` against row `h` of
    the weight matrix (the matrix is used transposed), plus the bias at `h`. -/
def linAt {n : ℕ} (x : FVec Ideal ⟨3, ![4, n, 512]⟩ .f32) (W : FVec Ideal ⟨2, ![512, 512]⟩ .f32)
    (bias : FVec Ideal ⟨1, ![512]⟩ .f32) (b : Fin 4) (t : Fin n) (h : Fin 512) : EReal :=
  (∑ k : Fin 512, x (ix3 b t k) * W (ix2 h k)) + bias (ix1 h)

/-- The linear layer as an array. -/
def lin {n : ℕ} (x : FVec Ideal ⟨3, ![4, n, 512]⟩ .f32) (W : FVec Ideal ⟨2, ![512, 512]⟩ .f32)
    (bias : FVec Ideal ⟨1, ![512]⟩ .f32) : FVec Ideal ⟨3, ![4, n, 512]⟩ .f32 :=
  fun i => linAt x W bias (i 0) (i 1) (i 2)

theorem lin_apply {n : ℕ} (x : FVec Ideal ⟨3, ![4, n, 512]⟩ .f32) (W : FVec Ideal ⟨2, ![512, 512]⟩ .f32)
    (bias : FVec Ideal ⟨1, ![512]⟩ .f32) (b : Fin 4) (t : Fin n) (h : Fin 512) :
    lin x W bias (ix3 b t h) = linAt x W bias b t h := rfl

/-- One entry of the joint: the two projected rows `(b, t)` and `(b, u)` added, tanh, against row `v` of the vocabulary
    matrix, plus the bias at `v`. -/
def jointAt (e : FVec Ideal ⟨3, ![4, 256, 512]⟩ .f32) (d : FVec Ideal ⟨3, ![4, 128, 512]⟩ .f32)
    (Wj : FVec Ideal ⟨2, ![1024, 512]⟩ .f32) (bj : FVec Ideal ⟨1, ![1024]⟩ .f32)
    (b : Fin 4) (t : Fin 256) (u : Fin 128) (v : Fin 1024) : EReal :=
  (∑ h : Fin 512, Ideal.tanh (e (ix3 b t h) + d (ix3 b u h)) * Wj (ix2 v h)) + bj (ix1 v)

/-- The joint as an array. -/
def joint (e : FVec Ideal ⟨3, ![4, 256, 512]⟩ .f32) (d : FVec Ideal ⟨3, ![4, 128, 512]⟩ .f32)
    (Wj : FVec Ideal ⟨2, ![1024, 512]⟩ .f32) (bj : FVec Ideal ⟨1, ![1024]⟩ .f32) : FVec Ideal ⟨4, ![4, 256, 128, 1024]⟩ .f32 :=
  fun i => jointAt e d Wj bj (i 0) (i 1) (i 2) (i 3)

theorem joint_apply (e : FVec Ideal ⟨3, ![4, 256, 512]⟩ .f32) (d : FVec Ideal ⟨3, ![4, 128, 512]⟩ .f32)
    (Wj : FVec Ideal ⟨2, ![1024, 512]⟩ .f32) (bj : FVec Ideal ⟨1, ![1024]⟩ .f32)
    (b : Fin 4) (t : Fin 256) (u : Fin 128) (v : Fin 1024) :
    joint e d Wj bj (ix4 b t u v) = jointAt e d Wj bj b t u v := rfl

/-- The whole network: both projections, then the joint. -/
def result (enc : FVec Ideal ⟨3, ![4, 256, 512]⟩ .f32) (dec : FVec Ideal ⟨3, ![4, 128, 512]⟩ .f32)
    (Wenc : FVec Ideal ⟨2, ![512, 512]⟩ .f32) (benc : FVec Ideal ⟨1, ![512]⟩ .f32)
    (Wdec : FVec Ideal ⟨2, ![512, 512]⟩ .f32) (bdec : FVec Ideal ⟨1, ![512]⟩ .f32)
    (Wj : FVec Ideal ⟨2, ![1024, 512]⟩ .f32) (bj : FVec Ideal ⟨1, ![1024]⟩ .f32) : FVec Ideal ⟨4, ![4, 256, 128, 1024]⟩ .f32 :=
  joint (lin enc Wenc benc) (lin dec Wdec bdec) Wj bj

end Cert.JointNet

end
-- ==== Proof.RefValue.lean ====
/-
  The reference's result, stage by stage, is the joint network's function of the eight arguments.

  The reference computes each linear layer as a `dot_general` contracting the last axis of the activations with the last
  axis of the weight matrix, adds the bias spread over the leading axes, spreads the two projections over each other's
  position axis, adds, applies tanh, and contracts the hidden axis against the vocabulary matrix. Read at an index every
  one of these is the entry the specification names: the contraction is the plain sum over the contracted coordinate,
  and each spreading reads the operand at the index with the spread axes dropped.
-/
import proofs.«138331_j5600637354581_1_alg».proof.Proof.Gen.ReferenceIdeal.Read
import proofs.«138331_j5600637354581_1_alg».proof.Proof.Spec

noncomputable section

open scoped BigOperators

namespace Cert.ReferenceIdeal.Hand

open Cert.ReferenceIdeal Cert.ReferenceIdeal.Read Idealize.ShloMosaic Idealize.ShloMosaic.ValueIdx Cert.JointNet

/-- The encoder projection: `dot_general` over the last axes plus the bias row is the linear layer. -/
theorem enc_stage (x0 : (⟨S4x256x512, .f32⟩ : BufTy).Contents (Elt Ideal)) (x2 : (⟨S512x512, .f32⟩ : BufTy).Contents (Elt Ideal))
    (x3 : (⟨S512, .f32⟩ : BufTy).Contents (Elt Ideal)) :
    val_main_v3 (F := Ideal) x0 x2 x3 = lin x0 x2 x3 := by
  funext i
  obtain ⟨b, t, h, rfl⟩ : ∃ (b : Fin 4) (t : Fin 256) (h : Fin 512), i = ix3 b t h := ⟨i 0, i 1, i 2, eq_ix3 i⟩
  -- the activations are read along row (b, t), the weights along row h, the bias at h
  have el : ∀ k : Fin 512, lidx_main_v0 (ix3 b t h) k = ix3 b t k := fun k => funext fun a => Fin.ext (by
    match a with | ⟨0, _⟩ => rfl | ⟨1, _⟩ => rfl | ⟨2, _⟩ => rfl)
  have er : ∀ k : Fin 512, ridx_main_v0 (ix3 b t h) k = ix2 h k := fun k => funext fun a => Fin.ext (by
    match a with | ⟨0, _⟩ => rfl | ⟨1, _⟩ => rfl)
  have eb : idx_main_v1 (idx_main_v2 (ix3 b t h)) = ix1 h := funext fun a => Fin.ext (by
    match a with | ⟨0, _⟩ => rfl)
  rw [val_main_v3_apply, val_main_v0_apply, val_main_v2_apply, val_main_v1_apply, eb]
  simp only [el, er]
  rfl

/-- The decoder projection, the same over `[4, 128, 512]`. -/
theorem dec_stage (x1 : (⟨S4x128x512, .f32⟩ : BufTy).Contents (Elt Ideal)) (x4 : (⟨S512x512, .f32⟩ : BufTy).Contents (Elt Ideal))
    (x5 : (⟨S512, .f32⟩ : BufTy).Contents (Elt Ideal)) :
    val_main_v7 (F := Ideal) x1 x4 x5 = lin x1 x4 x5 := by
  funext i
  obtain ⟨b, u, h, rfl⟩ : ∃ (b : Fin 4) (u : Fin 128) (h : Fin 512), i = ix3 b u h := ⟨i 0, i 1, i 2, eq_ix3 i⟩
  have el : ∀ k : Fin 512, lidx_main_v4 (ix3 b u h) k = ix3 b u k := fun k => funext fun a => Fin.ext (by
    match a with | ⟨0, _⟩ => rfl | ⟨1, _⟩ => rfl | ⟨2, _⟩ => rfl)
  have er : ∀ k : Fin 512, ridx_main_v4 (ix3 b u h) k = ix2 h k := fun k => funext fun a => Fin.ext (by
    match a with | ⟨0, _⟩ => rfl | ⟨1, _⟩ => rfl)
  have eb : idx_main_v5 (idx_main_v6 (ix3 b u h)) = ix1 h := funext fun a => Fin.ext (by
    match a with | ⟨0, _⟩ => rfl)
  rw [val_main_v7_apply, val_main_v4_apply, val_main_v6_apply, val_main_v5_apply, eb]
  simp only [el, er]
  rfl

/-- The reference's result is the joint network of its arguments. -/
theorem ref_result (x0 : (⟨S4x256x512, .f32⟩ : BufTy).Contents (Elt Ideal)) (x1 : (⟨S4x128x512, .f32⟩ : BufTy).Contents (Elt Ideal))
    (x2 : (⟨S512x512, .f32⟩ : BufTy).Contents (Elt Ideal)) (x3 : (⟨S512, .f32⟩ : BufTy).Contents (Elt Ideal))
    (x4 : (⟨S512x512, .f32⟩ : BufTy).Contents (Elt Ideal)) (x5 : (⟨S512, .f32⟩ : BufTy).Contents (Elt Ideal))
    (x6 : (⟨S1024x512, .f32⟩ : BufTy).Contents (Elt Ideal)) (x7 : (⟨S1024, .f32⟩ : BufTy).Contents (Elt Ideal)) :
    val_main_v17 (F := Ideal) x0 x1 x2 x3 x4 x5 x6 x7 = result x0 x1 x2 x3 x4 x5 x6 x7 := by
  funext i
  obtain ⟨b, t, u, v, rfl⟩ : ∃ (b : Fin 4) (t : Fin 256) (u : Fin 128) (v : Fin 1024), i = ix4 b t u v :=
    ⟨i 0, i 1, i 2, i 3, eq_ix4 i⟩
  -- the vocabulary matrix is read along row v, its bias at v
  have er : ∀ k : Fin 512, ridx_main_v14 (ix4 b t u v) k = ix2 v k := fun k => funext fun a => Fin.ext (by
    match a with | ⟨0, _⟩ => rfl | ⟨1, _⟩ => rfl)
  have eb : idx_main_v15 (idx_main_v16 (ix4 b t u v)) = ix1 v := funext fun a => Fin.ext (by
    match a with | ⟨0, _⟩ => rfl)
  -- the encoder projection is read at (b, t, k): the u axis it was spread over is dropped
  have ee : ∀ k : Fin 512, idx_main_v8 (idx_main_v10 (lidx_main_v14 (ix4 b t u v) k)) = ix3 b t k := fun k =>
    funext fun a => Fin.ext (by match a with | ⟨0, _⟩ => rfl | ⟨1, _⟩ => rfl | ⟨2, _⟩ => rfl)
  -- the decoder projection at (b, u, k): the t axis is dropped
  have ed : ∀ k : Fin 512, idx_main_v9 (idx_main_v11 (lidx_main_v14 (ix4 b t u v) k)) = ix3 b u k := fun k =>
    funext fun a => Fin.ext (by match a with | ⟨0, _⟩ => rfl | ⟨1, _⟩ => rfl | ⟨2, _⟩ => rfl)
  rw [val_main_v17_apply, val_main_v14_apply, val_main_v16_apply, val_main_v15_apply, eb]
  simp only [val_main_v13_apply, val_main_v12_apply, val_main_v10_apply, val_main_v8_apply, val_main_v11_apply,
    val_main_v9_apply, ee, ed, er, enc_stage, dec_stage]
  rfl

end Cert.ReferenceIdeal.Hand

end
-- ==== Proof.KernelRun.lean ====
/-
  The kernel program's run with its result array NAMED.

  The program is two regions in a row. Every weakly fair execution terminates without a fault, and at the end every
  unscoped buffer of a core holds the contents the run's last boundary names: what the second region's write-backs leave
  in its arrays, everything else as the first region left it. Read at the result buffer that is the second region's
  output array after its last grid point; read at an argument it is the argument as launched.
-/
import proofs.«138331_j5600637354581_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and every argument as launched. -/
theorem run_named : θ_run defs (onTc (τ := τ) (main (F := F))) ⟨m, fun _ => 0, ρ⟩ (fun r => ∀ c : Dev nD,
      r.2.mem ((c.tc : Thread nD τ).loc main_v1) = W2 m ρ c (Proc.devRef .tc main_v1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c =>
      ⟨h c _ (mem_uc main_v1 (by decide)),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c),
       (h c _ (mem_uc main_arg3 (by decide))).trans (W2_main_arg3 m ρ c),
       (h c _ (mem_uc main_arg4 (by decide))).trans (W2_main_arg4 m ρ c),
       (h c _ (mem_uc main_arg5 (by decide))).trans (W2_main_arg5 m ρ c),
       (h c _ (mem_uc main_arg6 (by decide))).trans (W2_main_arg6 m ρ c),
       (h c _ (mem_uc main_arg7 (by decide))).trans (W2_main_arg7 m ρ c)⟩)

end Cert.KernelIdeal.Hand

end
-- ==== Proof.LibPlainMatmul.lean ====
/-
  A plain matrix product read at an index, at the exact (extended-real) instance.

  For operands `l : [M, K]` and `w : [K, N]` and the dimension numbers "contract the left operand's last axis with the
  right operand's first, no batch axis", the product accumulated into the zero array has, at `(r, c)`, the value
  `∑ j, l (r, j) * w (j, c)`: there is no rounding and no accumulation order at this instance, and the one-axis contraction
  index is its one coordinate. Stated for every extent and every pair of operand formats (at this instance an entry is an
  extended real whatever its format).
-/
import Idealize.ShloMosaic.Lib.ValueIdx
import Idealize.ShloMosaic.PureOps.Ideal.Laws

noncomputable section

open scoped BigOperators

namespace Cert.Lib

open Idealize.ShloMosaic Idealize.ShloMosaic.ValueIdx

/-- A plain matrix product `[M, K] × [K, N]` accumulated into zeros, read at `(r, c)`: the sum over the contracted
    index `j` of `l (r, j) * w (j, c)`. -/
theorem matmul_plain_zero_apply {M K N : ℕ} {φ₁ φ₂ : FTy} (prec : Option ContractPrecision)
    (l : FVec Ideal ⟨2, ![M, K]⟩ φ₁) (w : FVec Ideal ⟨2, ![K, N]⟩ φ₂) (r : Fin M) (c : Fin N) :
    matmul (DotDims.plain M K N) prec l w (constant (F := Ideal) ⟨2, ![M, N]⟩ .f32 0x00000000#32) (ix2 r c)
      = ∑ j : Fin K, l (ix2 r j) * w (ix2 j c) := by
  simp only [matmul]
  rw [Ideal.matmul_constant_zero_apply, ← Equiv.sum_comp (contrEquiv1 (DotDims.plain M K N) K rfl rfl).symm]
  refine Finset.sum_congr rfl fun k _ => ?_
  -- the contraction index built from `k` has `k` as its one coordinate
  have hk := contrEquiv1_symm_val (DotDims.plain M K N) K rfl rfl k
  -- the left operand is read at (r, k): its kept axis follows the output's row, its contracted axis the index
  have el : (DotDims.plain M K N).lhsIdx (ix2 r c) ((contrEquiv1 (DotDims.plain M K N) K rfl rfl).symm k) = ix2 r k :=
    funext fun a => Fin.ext (by
      match a with
      | ⟨0, _⟩ => rfl
      | ⟨1, _⟩ => exact ((DotDims.plain M K N).lhsIdx_val_of_single rfl _ _).trans hk)
  -- the right operand is read at (k, c)
  have er : (DotDims.plain M K N).rhsIdx (ix2 r c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => rfl)
  rw [el, er]

end Cert.Lib

end
-- ==== Proof.LibIdealLayout.lean ====
/-
  General facts about array operations read at the exact (extended-real) instance, for any shapes.

  * A matrix product accumulated into the zero array is the host's `dot_general` of the same operands: both are, entry by
    entry, the plain sum over the contracted index (there is no rounding and no accumulation order at this instance).
  * One row `v : [b]` spread over all rows of an `[a, b]` array reads, at `(p, c)`, `v c` — in the two spellings programs
    use: a cast to `[1, b]` followed by a vector broadcast, and two `broadcast_in_dim`s (`[b] → [1, b] → [a, b]`).
  * A scalar spread over an array reads the scalar at every index.
-/
import Idealize.ShloMosaic.Lib.ValueIdx
import Idealize.ShloMosaic.Lib.ValueLayout
import Idealize.ShloMosaic.Lib.Pipeline.Value
import Idealize.ShloMosaic.PureOps.Ideal.Laws

noncomputable section

namespace Idealize.ShloMosaic.IdealLayout

open Idealize.ShloMosaic Idealize.ShloMosaic.ValueIdx

/-- At the exact instance a `tpu.matmul` into the zero accumulator IS the host's `dot_general` with the same dimension
    numbers: entry `j` of either is `∑ k, lhs (lhsIdx j k) * rhs (rhsIdx j k)`. -/
theorem matmul_zero_eq_dotGeneral {sl sr so : Shape} {φ₁ φ₂ : FTy} (d : DotDims sl sr so) (prec : Option ContractPrecision)
    (l : FVec Ideal sl φ₁) (r : FVec Ideal sr φ₂) :
    matmul d prec l r (constant (F := Ideal) so .f32 0x00000000#32) = Host.dotGeneral d prec l r := by
  funext j
  simp only [matmul, Host.dotGeneral]
  rw [Ideal.matmul_constant_zero_apply, Ideal.dotGeneral_apply]

/-- The same with the operands' float formats free: a matrix product into zeros of one pair of arrays is the host's
    `dot_general` of any pair with the same entries (at the exact instance an entry is an extended real whatever its
    format, so a body's bf16 casts change nothing). -/
theorem matmul_zero_eq_dotGeneral_of_eq {sl sr so : Shape} {φ₁ φ₂ ψ₁ ψ₂ : FTy} (d : DotDims sl sr so) (prec : Option ContractPrecision)
    (l : FVec Ideal sl φ₁) (r : FVec Ideal sr φ₂) (l' : FVec Ideal sl ψ₁) (r' : FVec Ideal sr ψ₂)
    (hl : ∀ i, (l i : EReal) = l' i) (hr : ∀ i, (r i : EReal) = r' i) :
    (matmul d prec l r (constant (F := Ideal) so .f32 0x00000000#32) : so.Idx → EReal) = Host.dotGeneral d prec l' r' := by
  funext j
  simp only [matmul, Host.dotGeneral]
  rw [Ideal.matmul_constant_zero_apply, Ideal.dotGeneral_apply]
  exact Finset.sum_congr rfl fun k _ => by rw [hl, hr]

/-- A row cast `[b] → [1, b]` and broadcast over `a` rows reads the row's entry of the column. -/
theorem broadcastTo_row_apply {α : Type} {a b : ℕ} (v : (⟨1, ![b]⟩ : Shape).Idx → α)
    (h1 : (⟨1, ![b]⟩ : Shape).ShapeCasts ⟨2, ![1, b]⟩) (h2 : (⟨2, ![1, b]⟩ : Shape).Broadcasts ⟨2, ![a, b]⟩)
    (p : Fin a) (c : Fin b) :
    broadcastTo ⟨2, ![a, b]⟩ (shapeCast ⟨2, ![1, b]⟩ v h1) h2 (ix2 p c) = v (ix1 c) :=
  (broadcastTo_1b_ab_apply _ h2 p c).trans (shapeCast_a_1a_apply v h1 0 c)

/-- Two `broadcast_in_dim`s, `[b] → [1, b]` along the last axis and `[1, b] → [a, b]`, read the row's entry of the column. -/
theorem broadcastInDim_row_apply {α : Type} {a b : ℕ} (v : (⟨1, ![b]⟩ : Shape).Idx → α)
    (h1 : (⟨1, ![b]⟩ : Shape).BroadcastsInDim ⟨2, ![1, b]⟩ ![1])
    (h2 : (⟨2, ![1, b]⟩ : Shape).BroadcastsInDim ⟨2, ![a, b]⟩ ![0, 1])
    (p : Fin a) (c : Fin b) :
    broadcastInDim ⟨2, ![a, b]⟩ ![0, 1] h2 (broadcastInDim ⟨2, ![1, b]⟩ ![1] h1 v) (ix2 p c) = v (ix1 c) := by
  have hc : c.val = if b = 1 then 0 else c.val := by
    split
    · have := c.isLt; omega
    · rfl
  refine (broadcastInDim_apply ![0, 1] h2 _ (ix2 p c) (ix2 (0 : Fin 1) c) (fun ax => ?_)).trans
    (broadcastInDim_apply ![1] h1 v (ix2 (0 : Fin 1) c) (ix1 c) (fun ax => ?_))
  · match ax with
    | ⟨0, _⟩ => show 0 = if (1 : Nat) = 1 then 0 else p.val; rw [if_pos rfl]
    | ⟨1, _⟩ => exact hc
  · match ax with
    | ⟨0, _⟩ => exact hc

/-- A scalar spread over an array by `broadcast_in_dim` reads the scalar everywhere. -/
theorem broadcastInDim_scalar_apply {α : Type} {t : Shape} (dims : Fin 0 → Fin t.rank)
    (h : (⟨0, ![]⟩ : Shape).BroadcastsInDim t dims) (x : (⟨0, ![]⟩ : Shape).Idx → α) (j : t.Idx) :
    broadcastInDim t dims h x j = x (fun a => a.elim0) :=
  broadcastInDim_apply dims h x j (fun a => a.elim0) (fun a => a.elim0)

end Idealize.ShloMosaic.IdealLayout

end
-- ==== Proof.LibLeadingAxes.lean ====
/-
  Layout operations between `[a, b, c]` and `[a·b, c]`, and the two one-axis broadcasts into `[a, b, c]`, read at an index
  written by coordinates, for any extents and any element type.

  * `[a, b, c] → [n, c]` with `n = a·b` (the two leading axes merged): row `p·b + q` of the result is row `(p, q)` of the operand.
  * `[n, c] → [a, b, c]` (the leading axis split): the converse reading.
  * `[a, b] → [a, 1, b]` (a unit axis put in the middle).
  * `[a, 1, c] → [a, b, c]` by a vector broadcast: every middle position reads the operand's one.
  * `[1, b, c] → [a, b, c]` by a vector broadcast: every leading position reads the operand's one.

  A shape cast keeps the row-major position, and the row-major position of `(p, q, r)` in `[a, b, c]` is
  `(p·b + q)·c + r`, that of `(s, r)` in `[n, c]` is `s·c + r`; the merged row is named by the caller (`s` with `s = p·b + q`),
  so the lemmas apply at literal extents where `a·b` is printed as one number.
-/
import Idealize.ShloMosaic.Lib.ValueIdx
import Idealize.ShloMosaic.Lib.ValueLayout
import Idealize.ShloMosaic.Lib.Pipeline.Value

noncomputable section

namespace Idealize.ShloMosaic.LeadingAxes

open Idealize.ShloMosaic Idealize.ShloMosaic.ValueIdx

variable {α : Type}

/-- The two leading axes merged: row `s = p·b + q` of the `[n, c]` result is row `(p, q)` of the `[a, b, c]` operand. -/
theorem shapeCast_merge_apply {a b c n : ℕ} (x : (⟨3, ![a, b, c]⟩ : Shape).Idx → α)
    (h : (⟨3, ![a, b, c]⟩ : Shape).ShapeCasts ⟨2, ![n, c]⟩) (p : Fin a) (q : Fin b) (r : Fin c) (s : Fin n)
    (hs : s.val = p.val * b + q.val) :
    shapeCast ⟨2, ![n, c]⟩ x h (ix2 s r) = x (ix3 p q r) :=
  shapeCast_apply x h _ _ (by
    rw [Shape.rowMajor_val_three, Shape.rowMajor_val_two]
    show (p.val * b + q.val) * c + r.val = s.val * c + r.val
    rw [hs])

/-- The leading axis split: entry `(p, q, r)` of the `[a, b, c]` result is entry `(p·b + q, r)` of the `[n, c]` operand. -/
theorem shapeCast_split_apply {a b c n : ℕ} (x : (⟨2, ![n, c]⟩ : Shape).Idx → α)
    (h : (⟨2, ![n, c]⟩ : Shape).ShapeCasts ⟨3, ![a, b, c]⟩) (p : Fin a) (q : Fin b) (r : Fin c) (s : Fin n)
    (hs : s.val = p.val * b + q.val) :
    shapeCast ⟨3, ![a, b, c]⟩ x h (ix3 p q r) = x (ix2 s r) :=
  shapeCast_apply x h _ _ (by
    rw [Shape.rowMajor_val_three, Shape.rowMajor_val_two]
    show s.val * c + r.val = (p.val * b + q.val) * c + r.val
    rw [hs])

/-- A unit axis put in the middle: entry `(i, 0, j)` of the `[a, 1, b]` result is entry `(i, j)` of the operand. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- One middle position spread over `b`: entry `(p, q, r)` of the result is entry `(p, 0, r)` of the operand. -/
theorem broadcastTo_a1c_abc_apply {a b c : ℕ} (x : (⟨3, ![a, 1, c]⟩ : Shape).Idx → α)
    (h : (⟨3, ![a, 1, c]⟩ : Shape).Broadcasts ⟨3, ![a, b, c]⟩) (p : Fin a) (q : Fin b) (r : Fin c) :
    broadcastTo ⟨3, ![a, b, c]⟩ x h (ix3 p q r) = x (ix3 p (0 : Fin 1) r) := by
  refine broadcastTo_apply x h (ix3 p q r) (ix3 p (0 : Fin 1) r) fun ax => ?_
  match ax with
  | ⟨0, _⟩ =>
    show p.val = if a = 1 then 0 else p.val
    split
    · have := p.isLt; omega
    · rfl
  | ⟨1, _⟩ => rfl
  | ⟨2, _⟩ =>
    show r.val = if c = 1 then 0 else r.val
    split
    · have := r.isLt; omega
    · rfl

/-- One leading position spread over `a`: entry `(p, q, r)` of the result is entry `(0, q, r)` of the operand. -/
theorem broadcastTo_1bc_abc_apply {a b c : ℕ} (x : (⟨3, ![1, b, c]⟩ : Shape).Idx → α)
    (h : (⟨3, ![1, b, c]⟩ : Shape).Broadcasts ⟨3, ![a, b, c]⟩) (p : Fin a) (q : Fin b) (r : Fin c) :
    broadcastTo ⟨3, ![a, b, c]⟩ x h (ix3 p q r) = x (ix3 (0 : Fin 1) q r) := by
  refine broadcastTo_apply x h (ix3 p q r) (ix3 (0 : Fin 1) q r) fun ax => ?_
  match ax with
  | ⟨0, _⟩ => rfl
  | ⟨1, _⟩ =>
    show q.val = if b = 1 then 0 else q.val
    split
    · have := q.isLt; omega
    · rfl
  | ⟨2, _⟩ =>
    show r.val = if c = 1 then 0 else r.val
    split
    · have := r.isLt; omega
    · rfl

end Idealize.ShloMosaic.LeadingAxes

end
-- ==== Proof.Payloads.lean ====
/-
  What the two kernel bodies store, read at an index, over the extended reals.

  The projection body reshapes a `[4, n, 512]` block to `[4·n, 512]`, multiplies it into zeros against the transposed
  `[512, 512]` weight matrix, adds the bias row and reshapes back: at `(b, t, h)` that is row `(b, t)` of the block
  against row `h` of the weights plus the bias at `h` — the linear layer. (The casts to a shorter float format are the
  identity on extended reals.)

  The joint body spreads a `[32, 512]` tile of one projection over the 128 positions of the other and the `[128, 512]`
  tile of the other over its own 32 rows, adds, applies tanh, flattens the `(32, 128)` pairs to 4096 rows, multiplies
  into zeros against the transposed `[512, 512]` vocabulary tile, adds the bias row and reshapes to `[1, 32, 128, 512]`:
  at `(0, r, u, c)` that is the sum over `h` of tanh of the two tiles' rows `r` and `u` at `h`, against row `c` of
  the vocabulary tile, plus the bias at `c`.
-/
import proofs.«138331_j5600637354581_1_alg».proof.Proof.Gen.KernelIdeal.Skeleton
import proofs.«138331_j5600637354581_1_alg».proof.Proof.Spec
import proofs.«138331_j5600637354581_1_alg».proof.Proof.LibPlainMatmul
import proofs.«138331_j5600637354581_1_alg».proof.Proof.LibIdealLayout
import proofs.«138331_j5600637354581_1_alg».proof.Proof.LibLeadingAxes
import Idealize.ShloMosaic.Lib.ValueLayout

noncomputable section

open scoped BigOperators

namespace Cert.KernelIdeal.Hand

open Cert.KernelIdeal Cert.KernelIdeal.Gen Idealize.ShloMosaic Idealize.ShloMosaic.ValueIdx
open Idealize.ShloMosaic.LeadingAxes Idealize.ShloMosaic.IdealLayout Cert.JointNet

/-- The encoder projection's stored value is the linear layer of the three loaded blocks. -/
theorem pay_enc (x : Vec Ideal S4x256x512 .f32) (W : Vec Ideal S512x512 .f32) (bias : Vec Ideal S512 .f32) :
    k0_pay1 (F := Ideal) x W bias = lin x W bias := by
  funext i
  obtain ⟨b, t, h, rfl⟩ : ∃ (b : Fin 4) (t : Fin 256) (h : Fin 512), i = ix3 b t h := ⟨i 0, i 1, i 2, eq_ix3 i⟩
  have hr : b.val * 256 + t.val < 1024 := by have := b.isLt; have := t.isLt; omega
  unfold k0_pay1
  -- the reshape back reads row b·256 + t of the [1024, 512] sum
  refine (shapeCast_split_apply _ _ b t h ⟨b.val * 256 + t.val, hr⟩ rfl).trans ?_
  refine congrArg₂ (· + ·) ?_ ?_
  · -- the product into zeros is the plain sum over the contracted coordinate
    refine (Cert.Lib.matmul_plain_zero_apply none _ _ ⟨b.val * 256 + t.val, hr⟩ h).trans (Finset.sum_congr rfl fun k _ => ?_)
    refine congrArg₂ (· * ·) ?_ ?_
    · exact shapeCast_merge_apply x _ b t k ⟨b.val * 256 + t.val, hr⟩ rfl
    · exact transpose_ix2_apply _ _ k h
  · exact broadcastTo_row_apply bias _ _ ⟨b.val * 256 + t.val, hr⟩ h

/-- The decoder projection's, the same over `[4, 128, 512]`. -/
theorem pay_dec (x : Vec Ideal S4x128x512 .f32) (W : Vec Ideal S512x512 .f32) (bias : Vec Ideal S512 .f32) :
    k0_pay2 (F := Ideal) x W bias = lin x W bias := by
  funext i
  obtain ⟨b, u, h, rfl⟩ : ∃ (b : Fin 4) (u : Fin 128) (h : Fin 512), i = ix3 b u h := ⟨i 0, i 1, i 2, eq_ix3 i⟩
  have hr : b.val * 128 + u.val < 512 := by have := b.isLt; have := u.isLt; omega
  unfold k0_pay2
  refine (shapeCast_split_apply _ _ b u h ⟨b.val * 128 + u.val, hr⟩ rfl).trans ?_
  refine congrArg₂ (· + ·) ?_ ?_
  · refine (Cert.Lib.matmul_plain_zero_apply none _ _ ⟨b.val * 128 + u.val, hr⟩ h).trans (Finset.sum_congr rfl fun k _ => ?_)
    refine congrArg₂ (· * ·) ?_ ?_
    · exact shapeCast_merge_apply x _ b u k ⟨b.val * 128 + u.val, hr⟩ rfl
    · exact transpose_ix2_apply _ _ k h
  · exact broadcastTo_row_apply bias _ _ ⟨b.val * 128 + u.val, hr⟩ h

/-- The joint body's stored tile at `(0, r, u, c)`. -/
theorem pay_joint (e : Vec Ideal S1x32x512 .f32) (d : Vec Ideal S1x128x512 .f32) (W : Vec Ideal S512x512 .f32)
    (bias : Vec Ideal S512 .f32) (z : Fin 1) (r : Fin 32) (u : Fin 128) (c : Fin 512) :
    k1_pay1 (F := Ideal) e d W bias (ix4 z r u c)
      = (∑ h : Fin 512, Ideal.tanh (e (ix3 (0 : Fin 1) r h) + d (ix3 (0 : Fin 1) u h)) * W (ix2 c h)) + bias (ix1 c) := by
  have hs : r.val * 128 + u.val < 4096 := by have := r.isLt; have := u.isLt; omega
  unfold k1_pay1
  -- the two reshapes of the stored value: drop the leading unit axis, then row r·128 + u of the [4096, 512] sum
  refine (shapeCast_abc_1abc_apply _ _ z r u c).trans ?_
  refine (shapeCast_split_apply _ _ r u c ⟨r.val * 128 + u.val, hs⟩ rfl).trans ?_
  refine congrArg₂ (· + ·) ?_ ?_
  · refine (Cert.Lib.matmul_plain_zero_apply none _ _ ⟨r.val * 128 + u.val, hs⟩ c).trans (Finset.sum_congr rfl fun h _ => ?_)
    refine congrArg₂ (· * ·) ?_ (transpose_ix2_apply _ _ h c)
    -- the flattened row r·128 + u is the pair (r, u)
    refine (shapeCast_merge_apply _ _ r u h ⟨r.val * 128 + u.val, hs⟩ rfl).trans ?_
    refine congrArg Ideal.tanh (congrArg₂ (· + ·) ?_ ?_)
    · -- the first tile's row r, whatever u
      refine (broadcastTo_a1c_abc_apply _ _ r u h).trans ?_
      refine (shapeCast_ab_a1b_apply _ _ r (0 : Fin 1) h).trans ?_
      exact shapeCast_1ab_ab_apply e _ r h
    · -- the second tile's row u, whatever r
      refine (broadcastTo_1bc_abc_apply _ _ r u h).trans ?_
      refine (shapeCast_ab_1ab_apply _ _ (0 : Fin 1) u h).trans ?_
      exact shapeCast_1ab_ab_apply d _ u h
  · exact broadcastTo_row_apply bias _ _ ⟨r.val * 128 + u.val, hs⟩ c

end Cert.KernelIdeal.Hand

end
-- ==== Proof.Region0.lean ====
/-
  The first region: what its two output arrays hold after the run, as functions of the arrays it reads.

  The region has one grid point and every window's block is its whole array (block index zero on every axis), so an
  entry of a block is the same entry of the array. The body stores the linear layer of the blocks it loads; the one
  write-back of each output covers the whole array; so each output array ends at the linear layer of the input arrays.
-/
import proofs.«138331_j5600637354581_1_alg».proof.Proof.Gen.KernelIdeal.Frame
import proofs.«138331_j5600637354581_1_alg».proof.Proof.Payloads
import Idealize.ShloMosaic.Lib.Pipeline.Value

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open Cert.JointNet

variable (V : (c : Dev nD) → (b : Ref sig .tc) → Buf (Elt Ideal) ((c : Thread nD τ).loc b))

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The printed index maps of the first region, decided over its one point: every block index is zero. -/
theorem idx0 : ∀ t : Fin cfg0.N,
    win0_0.index t (0 : Fin 3) = 0 ∧ win0_0.index t (1 : Fin 3) = 0 ∧ win0_0.index t (2 : Fin 3) = 0
    ∧ win0_1.index t (0 : Fin 3) = 0 ∧ win0_1.index t (1 : Fin 3) = 0 ∧ win0_1.index t (2 : Fin 3) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 3) = 0 ∧ win0_6.index t (1 : Fin 3) = 0 ∧ win0_6.index t (2 : Fin 3) = 0
    ∧ win0_7.index t (0 : Fin 3) = 0 ∧ win0_7.index t (1 : Fin 3) = 0 ∧ win0_7.index t (2 : Fin 3) = 0 :=
  (by decide +kernel : ∀ t : Fin grid0.N, _)

/-- What the one point writes back to the encoder projection's array is the block of the linear layer of the arrays
    the region reads. -/
theorem flushed0_6_eq (c : Dev nD) (t : Fin cfg0.N) :
    (dat0 V c).flushed 6 t
      = ((cfg0.win 6).blk t).view.read (Elt Ideal) (lin (V c main_arg0) (V c main_arg2) (V c main_arg3)) := by
  show (cfg0.win 6).cut (grid0.coords t) ((dat0 V c).after 6 t) = _
  rw [after0_6]
  unfold out0_6
  rw [View.canon_unit_zero hz3]
  simp only [View.ld_unit_zero (S := S4x256x512) hz3, View.ld_unit_zero (S := S512x512) hz2, View.ld_unit_zero (S := S512) hz1]
  rw [pay_enc]
  obtain ⟨a0, a1, a2, -, -, -, w0, w1, s0, -, -, -, o0, o1, o2, -, -, -⟩ := idx0 t
  refine funext fun (j : S4x256x512.Idx) => ?_
  obtain ⟨b, p, h, rfl⟩ : ∃ (b : Fin 4) (p : Fin 256) (h : Fin 512), j = ix3 b p h :=
    ⟨j 0, j 1, j 2, eq_ix3 (n0 := 4) (n1 := 256) (n2 := 512) j⟩
  show linAt (iblk0 V c 0 t) (iblk0 V c 2 t) (iblk0 V c 3 t) b p h
    = linAt (V c main_arg0) (V c main_arg2) (V c main_arg3)
        (((cfg0.win 6).blk t).view.emb (ix3 b p h) 0) (((cfg0.win 6).blk t).view.emb (ix3 b p h) 1)
        (((cfg0.win 6).blk t).view.emb (ix3 b p h) 2)
  unfold linAt
  refine congrArg₂ (· + ·) (Finset.sum_congr rfl fun k _ => congrArg₂ (· * ·) ?_ ?_) ?_
  · show V c main_arg0 (((cfg0.win 0).blk t).view.emb (ix3 b p k)) = _
    refine congrArg (V c main_arg0) (funext fun a => Fin.ext ?_)
    match a with
    | ⟨0, _⟩ => show win0_0.index t (0 : Fin 3) * 4 + 1 * b.val = win0_6.index t (0 : Fin 3) * 4 + 1 * b.val; omega
    | ⟨1, _⟩ => show win0_0.index t (1 : Fin 3) * 256 + 1 * p.val = win0_6.index t (1 : Fin 3) * 256 + 1 * p.val; omega
    | ⟨2, _⟩ => show win0_0.index t (2 : Fin 3) * 512 + 1 * k.val = k.val; omega
  · show V c main_arg2 (((cfg0.win 2).blk t).view.emb (ix2 h k)) = _
    refine congrArg (V c main_arg2) (funext fun a => Fin.ext ?_)
    match a with
    | ⟨0, _⟩ => show win0_2.index t (0 : Fin 2) * 512 + 1 * h.val = win0_6.index t (2 : Fin 3) * 512 + 1 * h.val; omega
    | ⟨1, _⟩ => show win0_2.index t (1 : Fin 2) * 512 + 1 * k.val = k.val; omega
  · show V c main_arg3 (((cfg0.win 3).blk t).view.emb (ix1 h)) = _
    refine congrArg (V c main_arg3) (funext fun a => Fin.ext ?_)
    match a with
    | ⟨0, _⟩ => show win0_3.index t (0 : Fin 1) * 512 + 1 * h.val = win0_6.index t (2 : Fin 3) * 512 + 1 * h.val; omega

/-- What the one point writes back to the decoder projection's array, the same way. -/
theorem flushed0_7_eq (c : Dev nD) (t : Fin cfg0.N) :
    (dat0 V c).flushed 7 t
      = ((cfg0.win 7).blk t).view.read (Elt Ideal) (lin (V c main_arg1) (V c main_arg4) (V c main_arg5)) := by
  show (cfg0.win 7).cut (grid0.coords t) ((dat0 V c).after 7 t) = _
  rw [after0_7]
  unfold out0_7
  rw [View.canon_unit_zero hz3]
  simp only [View.ld_unit_zero (S := S4x128x512) hz3, View.ld_unit_zero (S := S512x512) hz2, View.ld_unit_zero (S := S512) hz1]
  rw [pay_dec]
  obtain ⟨-, -, -, a0, a1, a2, -, -, -, w0, w1, s0, -, -, -, o0, o1, o2⟩ := idx0 t
  refine funext fun (j : S4x128x512.Idx) => ?_
  obtain ⟨b, p, h, rfl⟩ : ∃ (b : Fin 4) (p : Fin 128) (h : Fin 512), j = ix3 b p h :=
    ⟨j 0, j 1, j 2, eq_ix3 (n0 := 4) (n1 := 128) (n2 := 512) j⟩
  show linAt (iblk0 V c 1 t) (iblk0 V c 4 t) (iblk0 V c 5 t) b p h
    = linAt (V c main_arg1) (V c main_arg4) (V c main_arg5)
        (((cfg0.win 7).blk t).view.emb (ix3 b p h) 0) (((cfg0.win 7).blk t).view.emb (ix3 b p h) 1)
        (((cfg0.win 7).blk t).view.emb (ix3 b p h) 2)
  unfold linAt
  refine congrArg₂ (· + ·) (Finset.sum_congr rfl fun k _ => congrArg₂ (· * ·) ?_ ?_) ?_
  · show V c main_arg1 (((cfg0.win 1).blk t).view.emb (ix3 b p k)) = _
    refine congrArg (V c main_arg1) (funext fun a => Fin.ext ?_)
    match a with
    | ⟨0, _⟩ => show win0_1.index t (0 : Fin 3) * 4 + 1 * b.val = win0_7.index t (0 : Fin 3) * 4 + 1 * b.val; omega
    | ⟨1, _⟩ => show win0_1.index t (1 : Fin 3) * 128 + 1 * p.val = win0_7.index t (1 : Fin 3) * 128 + 1 * p.val; omega
    | ⟨2, _⟩ => show win0_1.index t (2 : Fin 3) * 512 + 1 * k.val = k.val; omega
  · show V c main_arg4 (((cfg0.win 4).blk t).view.emb (ix2 h k)) = _
    refine congrArg (V c main_arg4) (funext fun a => Fin.ext ?_)
    match a with
    | ⟨0, _⟩ => show win0_4.index t (0 : Fin 2) * 512 + 1 * h.val = win0_7.index t (2 : Fin 3) * 512 + 1 * h.val; omega
    | ⟨1, _⟩ => show win0_4.index t (1 : Fin 2) * 512 + 1 * k.val = k.val; omega
  · show V c main_arg5 (((cfg0.win 5).blk t).view.emb (ix1 h)) = _
    refine congrArg (V c main_arg5) (funext fun a => Fin.ext ?_)
    match a with
    | ⟨0, _⟩ => show win0_5.index t (0 : Fin 1) * 512 + 1 * h.val = win0_7.index t (2 : Fin 3) * 512 + 1 * h.val; omega

/-- An index of the encoder projection's array is in point `t`'s block iff each coordinate is in the block's range. -/
theorem mem_blk0_6 (t : Fin cfg0.N) (i : S4x256x512.Idx) :
    i ∈ ((cfg0.win 6).blk t).view.set ↔ ∀ a : Fin 3, win0_6.index t a * S4x256x512.size a ≤ (i a).val
      ∧ (i a).val < win0_6.index t a * S4x256x512.size a + S4x256x512.size a := by
  show i ∈ ((View.whole main_v0_0).slice (win0_6.rect t)).set ↔ _
  rw [View.set_slice_whole, Rect.mem_set_unit]
  exact Iff.rfl

theorem mem_blk0_7 (t : Fin cfg0.N) (i : S4x128x512.Idx) :
    i ∈ ((cfg0.win 7).blk t).view.set ↔ ∀ a : Fin 3, win0_7.index t a * S4x128x512.size a ≤ (i a).val
      ∧ (i a).val < win0_7.index t a * S4x128x512.size a + S4x128x512.size a := by
  show i ∈ ((View.whole main_v0_1).slice (win0_7.rect t)).set ↔ _
  rw [View.set_slice_whole, Rect.mem_set_unit]
  exact Iff.rfl

/-- The encoder projection's array after the region: the linear layer of the arrays the region reads (the one block is
    the whole array). -/
theorem arr0_6 (c : Dev nD) :
    (dat0 V c).arrAt 6 cfg0.N = lin (V c main_arg0) (V c main_arg2) (V c main_arg3) :=
  (dat0 V c).arrAt_eq_of_cover 6 _ (fun t _ => flushed0_6_eq V c t) fun i => by
    obtain ⟨-, -, -, -, -, -, -, -, -, -, -, -, o0, o1, o2, -, -, -⟩ := idx0 t0_0
    have hi0 : (i 0).val < 4 := (i 0).isLt
    have hi1 : (i 1).val < 256 := (i 1).isLt
    have hi2 : (i 2).val < 512 := (i 2).isLt
    refine ⟨t0_0, flush0_6 t0_0, ?_⟩
    rw [mem_blk0_6]
    intro a
    match a with
    | ⟨0, _⟩ => show win0_6.index t0_0 (0 : Fin 3) * 4 ≤ (i 0).val ∧ (i 0).val < win0_6.index t0_0 (0 : Fin 3) * 4 + 4; omega
    | ⟨1, _⟩ => show win0_6.index t0_0 (1 : Fin 3) * 256 ≤ (i 1).val ∧ (i 1).val < win0_6.index t0_0 (1 : Fin 3) * 256 + 256; omega
    | ⟨2, _⟩ => show win0_6.index t0_0 (2 : Fin 3) * 512 ≤ (i 2).val ∧ (i 2).val < win0_6.index t0_0 (2 : Fin 3) * 512 + 512; omega

/-- The decoder projection's array after the region. -/
theorem arr0_7 (c : Dev nD) :
    (dat0 V c).arrAt 7 cfg0.N = lin (V c main_arg1) (V c main_arg4) (V c main_arg5) :=
  (dat0 V c).arrAt_eq_of_cover 7 _ (fun t _ => flushed0_7_eq V c t) fun i => by
    obtain ⟨-, -, -, -, -, -, -, -, -, -, -, -, -, -, -, o0, o1, o2⟩ := idx0 t0_0
    have hi0 : (i 0).val < 4 := (i 0).isLt
    have hi1 : (i 1).val < 128 := (i 1).isLt
    have hi2 : (i 2).val < 512 := (i 2).isLt
    refine ⟨t0_0, flush0_7 t0_0, ?_⟩
    rw [mem_blk0_7]
    intro a
    match a with
    | ⟨0, _⟩ => show win0_7.index t0_0 (0 : Fin 3) * 4 ≤ (i 0).val ∧ (i 0).val < win0_7.index t0_0 (0 : Fin 3) * 4 + 4; omega
    | ⟨1, _⟩ => show win0_7.index t0_0 (1 : Fin 3) * 128 ≤ (i 1).val ∧ (i 1).val < win0_7.index t0_0 (1 : Fin 3) * 128 + 128; omega
    | ⟨2, _⟩ => show win0_7.index t0_0 (2 : Fin 3) * 512 ≤ (i 2).val ∧ (i 2).val < win0_7.index t0_0 (2 : Fin 3) * 512 + 512; omega

end Cert.KernelIdeal.Hand

end
-- ==== Proof.Region1.lean ====
/-
  The second region: what its output array holds after the run, as a function of the arrays it reads.

  The grid is 4 × 8 × 2: point (b, ti, vi) reads rows 32·ti … 32·ti + 31 of batch b of the first projection, all of batch
  b of the second, rows 512·vi … 512·vi + 511 of the vocabulary matrix and of its bias, and writes the
  `[1, 32, 128, 512]` block at block index (b, ti, 0, vi) of the `[4, 256, 128, 1024]` output. An entry
  `(0, r, u, c)` of that block is the output's entry `(b, 32·ti + r, u, 512·vi + c)`, and what the body stores there is
  the joint of the matching rows — the joint of the whole arrays at that entry. The 64 blocks tile the output, so the
  array ends at the joint of the arrays the region reads.
-/
import proofs.«138331_j5600637354581_1_alg».proof.Proof.Region0

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open Cert.JointNet

variable (V : (c : Dev nD) → (b : Ref sig .tc) → Buf (Elt Ideal) ((c : Thread nD τ).loc b))

/-- The printed index maps of the second region, decided over its 64 points: each input window's block index is the
    output's on the axis it follows and zero elsewhere, and the output's block indices stay in their ranges. -/
theorem idx1 : ∀ t : Fin cfg1.N,
    win1_0.index t (0 : Fin 3) = win1_4.index t (0 : Fin 4) ∧ win1_0.index t (1 : Fin 3) = win1_4.index t (1 : Fin 4)
    ∧ win1_0.index t (2 : Fin 3) = 0
    ∧ win1_1.index t (0 : Fin 3) = win1_4.index t (0 : Fin 4) ∧ win1_1.index t (1 : Fin 3) = 0 ∧ win1_1.index t (2 : Fin 3) = 0
    ∧ win1_2.index t (0 : Fin 2) = win1_4.index t (3 : Fin 4) ∧ win1_2.index t (1 : Fin 2) = 0
    ∧ win1_3.index t (0 : Fin 1) = win1_4.index t (3 : Fin 4)
    ∧ win1_4.index t (2 : Fin 4) = 0
    ∧ win1_4.index t (0 : Fin 4) ≤ 3 ∧ win1_4.index t (1 : Fin 4) ≤ 7 ∧ win1_4.index t (3 : Fin 4) ≤ 1 :=
  (by decide +kernel : ∀ t : Fin grid1.N, _)

/-- Every block of the output is some point's. -/
theorem idx1_onto : ∀ (q0 : Fin 4) (q1 : Fin 8) (q3 : Fin 2), ∃ t : Fin cfg1.N, win1_4.index t = ![q0.val, q1.val, 0, q3.val] :=
  (by decide +kernel : ∀ (q0 : Fin 4) (q1 : Fin 8) (q3 : Fin 2), ∃ t : Fin grid1.N, win1_4.index t = ![q0.val, q1.val, 0, q3.val])

/-- What point `t` writes back is block `t` of the joint of the arrays the region reads. -/
theorem flushed1_4_eq (c : Dev nD) (t : Fin cfg1.N) :
    (dat1 V c).flushed 4 t
      = ((cfg1.win 4).blk t).view.read (Elt Ideal) (joint (V c main_v0_0) (V c main_v0_1) (V c main_arg6) (V c main_arg7)) := by
  show (cfg1.win 4).cut (grid1.coords t) ((dat1 V c).after 4 t) = _
  rw [after1_4]
  unfold out1_4
  rw [View.canon_unit_zero hz4]
  simp only [View.ld_unit_zero (S := S1x32x512) hz3, View.ld_unit_zero (S := S1x128x512) hz3,
    View.ld_unit_zero (S := S512x512) hz2, View.ld_unit_zero (S := S512) hz1]
  obtain ⟨a0, a1, a2, b0, b1, b2, w0, w1, s0, o2, -, -, -⟩ := idx1 t
  refine funext fun (j : S1x32x128x512.Idx) => ?_
  obtain ⟨z, r, u, q, rfl⟩ : ∃ (z : Fin 1) (r : Fin 32) (u : Fin 128) (q : Fin 512), j = ix4 z r u q :=
    ⟨j 0, j 1, j 2, j 3, eq_ix4 (n0 := 1) (n1 := 32) (n2 := 128) (n3 := 512) j⟩
  have hz : z.val = 0 := by omega
  refine (pay_joint (iblk1 V c 0 t) (iblk1 V c 1 t) (iblk1 V c 2 t) (iblk1 V c 3 t) z r u q).trans ?_
  show _ = jointAt (V c main_v0_0) (V c main_v0_1) (V c main_arg6) (V c main_arg7)
        (((cfg1.win 4).blk t).view.emb (ix4 z r u q) 0) (((cfg1.win 4).blk t).view.emb (ix4 z r u q) 1)
        (((cfg1.win 4).blk t).view.emb (ix4 z r u q) 2) (((cfg1.win 4).blk t).view.emb (ix4 z r u q) 3)
  unfold jointAt
  refine congrArg₂ (· + ·) (Finset.sum_congr rfl fun h _ =>
    congrArg₂ (· * ·) (congrArg Ideal.tanh (congrArg₂ (· + ·) ?_ ?_)) ?_) ?_
  · -- the first projection's tile: batch and row follow the output's, the hidden axis is whole
    show V c main_v0_0 (((cfg1.win 0).blk t).view.emb (ix3 (0 : Fin 1) r h)) = _
    refine congrArg (V c main_v0_0) (funext fun a => Fin.ext ?_)
    match a with
    | ⟨0, _⟩ => show win1_0.index t (0 : Fin 3) * 1 + 1 * 0 = win1_4.index t (0 : Fin 4) * 1 + 1 * z.val; omega
    | ⟨1, _⟩ => show win1_0.index t (1 : Fin 3) * 32 + 1 * r.val = win1_4.index t (1 : Fin 4) * 32 + 1 * r.val; omega
    | ⟨2, _⟩ => show win1_0.index t (2 : Fin 3) * 512 + 1 * h.val = h.val; omega
  · -- the second projection's tile: batch follows the output's, position and hidden axes are whole
    show V c main_v0_1 (((cfg1.win 1).blk t).view.emb (ix3 (0 : Fin 1) u h)) = _
    refine congrArg (V c main_v0_1) (funext fun a => Fin.ext ?_)
    match a with
    | ⟨0, _⟩ => show win1_1.index t (0 : Fin 3) * 1 + 1 * 0 = win1_4.index t (0 : Fin 4) * 1 + 1 * z.val; omega
    | ⟨1, _⟩ => show win1_1.index t (1 : Fin 3) * 128 + 1 * u.val = win1_4.index t (2 : Fin 4) * 128 + 1 * u.val; omega
    | ⟨2, _⟩ => show win1_1.index t (2 : Fin 3) * 512 + 1 * h.val = h.val; omega
  · -- the vocabulary tile: rows follow the output's last axis
    show V c main_arg6 (((cfg1.win 2).blk t).view.emb (ix2 q h)) = _
    refine congrArg (V c main_arg6) (funext fun a => Fin.ext ?_)
    match a with
    | ⟨0, _⟩ => show win1_2.index t (0 : Fin 2) * 512 + 1 * q.val = win1_4.index t (3 : Fin 4) * 512 + 1 * q.val; omega
    | ⟨1, _⟩ => show win1_2.index t (1 : Fin 2) * 512 + 1 * h.val = h.val; omega
  · show V c main_arg7 (((cfg1.win 3).blk t).view.emb (ix1 q)) = _
    refine congrArg (V c main_arg7) (funext fun a => Fin.ext ?_)
    match a with
    | ⟨0, _⟩ => show win1_3.index t (0 : Fin 1) * 512 + 1 * q.val = win1_4.index t (3 : Fin 4) * 512 + 1 * q.val; omega

/-- An index of the output is in point `t`'s block iff each coordinate is in the block's range on its axis. -/
theorem mem_blk1_4 (t : Fin cfg1.N) (i : S4x256x128x1024.Idx) :
    i ∈ ((cfg1.win 4).blk t).view.set ↔ ∀ a : Fin 4, win1_4.index t a * S1x32x128x512.size a ≤ (i a).val
      ∧ (i a).val < win1_4.index t a * S1x32x128x512.size a + S1x32x128x512.size a := by
  show i ∈ ((View.whole main_v1).slice (win1_4.rect t)).set ↔ _
  rw [View.set_slice_whole, Rect.mem_set_unit]
  exact Iff.rfl

/-- The 64 blocks tile the output: entry (b, t, u, v) is in the block of the point (b, t / 32, v / 512). -/
theorem cover1_4 (i : S4x256x128x1024.Idx) :
    ∃ t : Fin cfg1.N, (cfg1.win 4).flush t = true ∧ i ∈ ((cfg1.win 4).blk t).view.set := by
  have hi0 : (i 0).val < 4 := (i 0).isLt
  have hi1 : (i 1).val < 256 := (i 1).isLt
  have hi2 : (i 2).val < 128 := (i 2).isLt
  have hi3 : (i 3).val < 1024 := (i 3).isLt
  obtain ⟨t, ht⟩ := idx1_onto ⟨(i 0).val, hi0⟩ ⟨(i 1).val / 32, by omega⟩ ⟨(i 3).val / 512, by omega⟩
  have q0 : win1_4.index t (0 : Fin 4) = (i 0).val := congrFun ht 0
  have q1 : win1_4.index t (1 : Fin 4) = (i 1).val / 32 := congrFun ht 1
  have q2 : win1_4.index t (2 : Fin 4) = 0 := congrFun ht 2
  have q3 : win1_4.index t (3 : Fin 4) = (i 3).val / 512 := congrFun ht 3
  refine ⟨t, flush1_4 t, ?_⟩
  rw [mem_blk1_4]
  intro a
  match a with
  | ⟨0, _⟩ => show win1_4.index t (0 : Fin 4) * 1 ≤ (i 0).val ∧ (i 0).val < win1_4.index t (0 : Fin 4) * 1 + 1; omega
  | ⟨1, _⟩ => show win1_4.index t (1 : Fin 4) * 32 ≤ (i 1).val ∧ (i 1).val < win1_4.index t (1 : Fin 4) * 32 + 32; omega
  | ⟨2, _⟩ => show win1_4.index t (2 : Fin 4) * 128 ≤ (i 2).val ∧ (i 2).val < win1_4.index t (2 : Fin 4) * 128 + 128; omega
  | ⟨3, _⟩ => show win1_4.index t (3 : Fin 4) * 512 ≤ (i 3).val ∧ (i 3).val < win1_4.index t (3 : Fin 4) * 512 + 512; omega

/-- The output array after the run is the joint of the arrays the region reads. -/
theorem arr1_4 (c : Dev nD) :
    (dat1 V c).arrAt 4 cfg1.N = joint (V c main_v0_0) (V c main_v0_1) (V c main_arg6) (V c main_arg7) :=
  (dat1 V c).arrAt_eq_of_cover 4 _ (fun t _ => flushed1_4_eq V c t) cover1_4

end Cert.KernelIdeal.Hand

end
-- ==== Proof.KernelValue.lean ====
/-
  The kernel program's result array, as the joint network of the launch arguments.

  At the end of the run the result buffer holds what the second region leaves in its output array: the joint of the
  arrays that region reads. Two of those are the first region's output arrays — the two linear layers of the launch
  arguments — and the other two are launch arguments no region writes. Composed: the joint network of the eight arguments.
-/
import proofs.«138331_j5600637354581_1_alg».proof.Proof.KernelRun
import proofs.«138331_j5600637354581_1_alg».proof.Proof.Region1

set_option maxRecDepth 16384

noncomputable section

namespace Cert.KernelIdeal.Hand

open Cert.KernelIdeal Cert.KernelIdeal.Gen
open Idealize.ShloMosaic Idealize.ShloMosaic.TcCoe Idealize.SL.Sem
open Cert.JointNet

variable (m : (ℓ : Loc nD τ sig) → Buf (Elt Ideal) ℓ) (ρ : Dev nD → PrngReg)

/-- The joint network of the launch arguments of core `c`. -/
abbrev resultOf (c : Dev nD) : Buf (Elt Ideal) ((c.tc : Thread nD τ).loc main_v1) :=
  result (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5))
    (m ((c.tc : Thread nD τ).loc main_arg6)) (m ((c.tc : Thread nD τ).loc main_arg7))

/-- The last boundary's contents at the result buffer are the joint network of the launch arguments. -/
theorem final (c : Dev nD) : W2 m ρ c (Proc.devRef .tc main_v1) = resultOf m c := by
  -- the first region's two output arrays are the two linear layers of the launch arguments
  have e0 : V1 m ρ c main_v0_0 = lin (n := 256) (m ((c.tc : Thread nD τ).loc main_arg0)) (m ((c.tc : Thread nD τ).loc main_arg2))
      (m ((c.tc : Thread nD τ).loc main_arg3)) := (W1_arr m ρ c 6).trans (arr0_6 (V0 m ρ) c)
  have e1 : V1 m ρ c main_v0_1 = lin (n := 128) (m ((c.tc : Thread nD τ).loc main_arg1)) (m ((c.tc : Thread nD τ).loc main_arg4))
      (m ((c.tc : Thread nD τ).loc main_arg5)) := (W1_arr m ρ c 7).trans (arr0_7 (V0 m ρ) c)
  -- the vocabulary matrix and its bias are as launched: the first region does not touch them
  have e6 : V1 m ρ c main_arg6 = m ((c.tc : Thread nD τ).loc main_arg6) := W1_of_ne m ρ c main_arg6 (by decide)
  have e7 : V1 m ρ c main_arg7 = m ((c.tc : Thread nD τ).loc main_arg7) := W1_of_ne m ρ c main_arg7 (by decide)
  calc W2 m ρ c (Proc.devRef .tc main_v1)
    _ = (dat1 (V1 m ρ) c).arrAt 4 cfg1.N := W2_arr m ρ c 4
    _ = joint (V1 m ρ c main_v0_0) (V1 m ρ c main_v0_1) (V1 m ρ c main_arg6) (V1 m ρ c main_arg7) := arr1_4 (V1 m ρ) c
    _ = resultOf m c := by rw [e0, e1, e6, e7]; rfl

/-- The run, read: the result buffer at the joint network of the launch arguments, the arguments unchanged. -/
theorem run : θ_run defs (onTc (τ := τ) (main (F := Ideal))) ⟨m, fun _ => 0, ρ⟩ (fun r => ∀ c : Dev nD,
      r.2.mem ((c.tc : Thread nD τ).loc main_v1) = resultOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (final m ρ c), (h c).2⟩) (run_named m ρ)

end Cert.KernelIdeal.Hand

end
-- ==== Proof.lean ====
/-
  The certificate of the transducer's joint network: a two-region kernel against its plain reference.

  The kernel computes the encoder and decoder projections in one region (two matrix products into zeros against the
  transposed weight matrices, each plus its bias row) and, in a second region gridded over (batch, 32-row tiles of the
  encoder positions, 512-column tiles of the vocabulary), adds every encoder row to every decoder row, applies tanh, and
  multiplies into zeros against the transposed vocabulary tile, plus its bias. The reference does the same with three
  contractions over whole arrays. Over the extended reals both are
      out (b, t, u, v) = (∑ h, tanh (e (b, t, h) + d (b, u, h)) · W_joint (v, h)) + b_joint v,
      e (b, t, h) = (∑ k, enc (b, t, k) · W_enc (h, k)) + b_enc h,   d likewise,
  the same finite sums term by term (a change of float format is the identity there, and a product into zeros is the
  plain sum), so the two results are equal entry by entry for ALL inputs: the finiteness of the inputs is never used.

  The pieces: the specification (Spec), the reference's stages as that function (RefValue), what each kernel body stores
  (Payloads), each region's output arrays after its write-backs (Region0, Region1), the kernel's run with its result
  named and read through the two regions (KernelRun, KernelValue). The three frames are the generated runs; the
  idealization rewrote nothing, so the kernel program and its idealization are one text.
-/
import proofs.«138331_j5600637354581_1_alg».proof.Defs
import proofs.«138331_j5600637354581_1_alg».proof.Proof.Gen.Kernel
import proofs.«138331_j5600637354581_1_alg».proof.Proof.Gen.Kernel.Skeleton
import proofs.«138331_j5600637354581_1_alg».proof.Proof.Gen.Kernel.Launch
import proofs.«138331_j5600637354581_1_alg».proof.Proof.Gen.Kernel.Points
import proofs.«138331_j5600637354581_1_alg».proof.Proof.Gen.Kernel.Frame
import proofs.«138331_j5600637354581_1_alg».proof.Proof.Gen.KernelIdeal
import proofs.«138331_j5600637354581_1_alg».proof.Proof.Gen.KernelIdeal.Skeleton
import proofs.«138331_j5600637354581_1_alg».proof.Proof.Gen.KernelIdeal.Launch
import proofs.«138331_j5600637354581_1_alg».proof.Proof.Gen.KernelIdeal.Points
import proofs.«138331_j5600637354581_1_alg».proof.Proof.Gen.KernelIdeal.Frame
import proofs.«138331_j5600637354581_1_alg».proof.Proof.Gen.ReferenceIdeal
import proofs.«138331_j5600637354581_1_alg».proof.Proof.Gen.Pre_finite_inputs
import proofs.«138331_j5600637354581_1_alg».proof.Proof.Gen.ReferenceIdeal.Read
import proofs.«138331_j5600637354581_1_alg».proof.Proof.RefValue
import proofs.«138331_j5600637354581_1_alg».proof.Proof.KernelValue
import Idealize.ShloMosaic.Adequacy
import Idealize.ShloMosaic.Init

noncomputable section

namespace Cert.Proof

open Idealize.ShloMosaic Idealize.SL.Sem

/-- The kernel program runs and leaves its arguments as launched. -/
theorem frame_kernel [Cert.Kernel.Facts] [Cert.Pre_finite_inputs.Facts] : Cert.frame_Kernel :=
  fun m ρ _ => Cert.Kernel.Gen.frame m ρ

/-- So does its idealization. -/
theorem frame_kernelIdeal [Cert.KernelIdeal.Facts] [Cert.Pre_finite_inputs.Facts] : Cert.frame_KernelIdeal :=
  fun m ρ _ => Cert.KernelIdeal.Gen.frame m ρ

/-- The reference's run with its result dropped. -/
theorem frame_referenceIdeal [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- From memories agreeing on the arguments both programs end with the joint network of those arguments. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.KernelIdeal.Hand.resultOf m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  obtain ⟨g0, g1, g2, g3, g4, g5, g6, g7⟩ := hagree c
  rw [g0, g1, g2, g3, g4, g5, g6, g7]
  exact (Cert.ReferenceIdeal.Read.val_main_v17_eq _ _ _ _ _ _ _ _).trans
    (Cert.ReferenceIdeal.Hand.ref_result _ _ _ _ _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
